-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S65536x1 : Shape := ⟨2, ![65536, 1]⟩
abbrev S1024x768 : Shape := ⟨2, ![1024, 768]⟩
abbrev S1024 : Shape := ⟨1, ![1024]⟩
abbrev S8x2048 : Shape := ⟨2, ![8, 2048]⟩
abbrev S8 : Shape := ⟨1, ![8]⟩
abbrev S32x8 : Shape := ⟨2, ![32, 8]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S8x2048 : S_.BroadcastsInDim S8x2048 (![] : Fin 0 → Fin S8x2048.rank)
  reducesTo_S8x2048_S_d0_1 : S8x2048.ReducesTo [0, 1] S_
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S32x8 .f32) (main_arg8 : FVec F S32 .f32) (main_arg9 : FVec F S1x32 .f32) (main_arg10 : FVec F S1 .f32) (main_v33 : IVec S_ 1) : IVec S_ 1 :=
  let main_v34 : FVec F S32x8 .f32 := Host.absf main_arg7
  let main_cst_12 : FVec F S_ .f32 := constant S_ .f32 0x7F800000#32
  let main_v35 : FVec F S32x8 .f32 := broadcastInDim S32x8 ![] bcast_S_S32x8 main_cst_12
  let main_v36 : IVec S32x8 1 := cmpf .olt main_v34 main_v35
  let main_c_13 : IVec S_ 1 := constantI S_ 1 1#1
  let main_v37 : IVec S_ 1 := (fun x v => Host.reduce IntOp.andi x v reducesTo_S32x8_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1024 .f32) (main_arg5 : FVec F S8x2048 .f32) (main_arg6 : FVec F S8 .f32) (main_arg7 : FVec F S32x8 .f32) (main_arg8 : FVec F S32 .f32) (main_arg9 : FVec F S1x32 .f32) (main_arg10 : FVec F S1 .f32) (main_v13 : IVec S_ 1) (main_v16 : IVec S1024x768 1) : IVec S_ 1 :=
  let main_c_5 : IVec S_ 1 := constantI S_ 1 1#1
  let main_v17 : IVec S_ 1 := (fun x v => Host.reduce IntOp.andi x v reducesTo_S1024x768_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x768 .f32) (main_arg1 : FVec F S65536x768 .f32) (main_arg2 : FVec F S65536x1 .f32) (main_arg3 : FVec F S1024x768 .f32) (main_arg4 : FVec F S1024 .f32) (main_arg5 : FVec F S8x2048 .f32) (main_arg6 : FVec F S8 .f32) (main_arg7 : FVec F S32x8 .f32) (main_arg8 : FVec F S32 .f32) (main_arg9 : FVec F S1x32 .f32) (main_arg10 : FVec F S1 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S65536x768 .f32 := Host.absf main_arg1
  let main_cst_0 : FVec F S_ .f32 := constant S_ .f32 0x7F800000#32
  let main_v5 : FVec F S65536x768 .f32 := broadcastInDim S65536x768 ![] bcast_S_S65536x768 main_cst_0
  let main_v6 : IVec S65536x768 1 := cmpf .olt main_v4 main_v5
  let main_c_1 : IVec S_ 1 := constantI S_ 1 1#1
  let main_v7 : IVec S_ 1 := (fun x v => Host.reduce IntOp.andi x v reducesTo_S65536x768_S_d0_1 h_S_) main_v6 main_c_1
  let main_v8 : IVec S_ 1 := andi main_v3 main_v7
  let main_v9 : FVec F S65536x1 .f32 := Host.absf main_arg2
  let main_cst_2 : FVec F S_ .f32 := constant S_ .f32 0x7F800000#32
  let main_v10 : FVec F S65536x1 .f32 := broadcastInDim S65536x1 ![] bcast_S_S65536x1 main_cst_2
  let main_v11 : IVec S65536x1 1 := cmpf .olt main_v9 main_v10
  let main_c_3 : IVec S_ 1 := constantI S_ 1 1#1
  let main_v12 : IVec S_ 1 := (fun x v => Host.reduce IntOp.andi x v reducesTo_S65536x1_S_d0_1 h_S_) main_v11 main_c_3
  let main_v13 : IVec S_ 1 := andi main_v8 main_v12
  let main_v14 : FVec F S1024x768 .f32 := Host.absf main_arg3
  let main_cst_4 : FVec F S_ .f32 := constant S_ .f32 0x7F800000#32
  let main_v15 : FVec F S1024x768 .f32 := broadcastInDim S1024x768 ![] bcast_S_S1024x768 main_cst_4
  let main_v16 : IVec S1024x768 1 := cmpf .olt main_v14 main_v15
  fn_part1 (F := F) main_arg4 main_arg5 main_arg6 main_arg7 main_arg8 main_arg9 main_arg10 main_v13 main_v16
-- ==== Kernel.lean ====
abbrev S65536x768 : Shape := ⟨2, ![65536, 768]⟩
abbrev S65536x1 : Shape := ⟨2, ![65536, 1]⟩
abbrev S1024x768 : Shape := ⟨2, ![1024, 768]⟩
abbrev S1024 : Shape := ⟨1, ![1024]⟩
abbrev S8x2048 : Shape := ⟨2, ![8, 2048]⟩
abbrev S8 : Shape := ⟨1, ![8]⟩
abbrev S32x8 : Shape := ⟨2, ![32, 8]⟩
abbrev S32 : Shape := ⟨1, ![32]⟩
abbrev S1x32 : Shape := ⟨2, ![1, 32]⟩
abbrev S1 : Shape := ⟨1, ![1]⟩
abbrev S1024x1 : Shape := ⟨2, ![1024, 1]⟩
abbrev S768x1024 : Shape := ⟨2, ![768, 1024]⟩
abbrev S1024x1024 : Shape := ⟨2, ![1024, 1024]⟩
abbrev S1x1024 : Shape := ⟨2, ![1, 1024]⟩
abbrev S8x1024 : Shape := ⟨2, ![8, 1024]⟩
abbrev S1024x8 : Shape := ⟨2, ![1024, 8]⟩
abbrev S1x8 : Shape := ⟨2, ![1, 8]⟩
abbrev S8x32 : Shape := ⟨2, ![8, 32]⟩
abbrev S1024x32 : Shape := ⟨2, ![1024, 32]⟩
abbrev S32x1 : Shape := ⟨2, ![32, 1]⟩
abbrev S1x1 : Shape := ⟨2, ![1, 1]⟩

abbrev nBuf : Space → Nat
  | .hbm => 17
  | .vmem => 18
  | .smem => 0
  | _ => 0

abbrev bufTy : (tb : Table) → Fin (tcTables nBuf tb) → BufTy
  | .hbm, ⟨0, _⟩ => ⟨S65536x768, .f32⟩
  | .hbm, ⟨1, _⟩ => ⟨S65536x768, .f32⟩
  | .hbm, ⟨2, _⟩ => ⟨S65536x1, .f32⟩
  | .hbm, ⟨3, _⟩ => ⟨S1024x768, .f32⟩
  | .hbm, ⟨4, _⟩ => ⟨S1024, .f32⟩
  | .hbm, ⟨5, _⟩ => ⟨S8x2048, .f32⟩
  | .hbm, ⟨6, _⟩ => ⟨S8, .f32⟩
  | .hbm, ⟨7, _⟩ => ⟨S32x8, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1024x768, .bf16⟩
  | .hbm, ⟨12, _⟩ => ⟨S8x2048, .bf16⟩
  | .hbm, ⟨13, _⟩ => ⟨S32x8, .bf16⟩
  | .hbm, ⟨14, _⟩ => ⟨S1x32, .bf16⟩
  | .hbm, ⟨15, _⟩ => ⟨S65536x1, .f32⟩
  | .hbm, ⟨16, _⟩ => ⟨S65536x1, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x1, .f32⟩
  | .local _ .vmem, ⟨5, _⟩ => ⟨S1024x1, .f32⟩
  | .local _ .vmem, ⟨6, _⟩ => ⟨S1024x768, .bf16⟩
  | .local _ .vmem, ⟨7, _⟩ => ⟨S1024, .f32⟩
  | .local _ .vmem, ⟨8, _⟩ => ⟨S8x2048, .bf16⟩
  | .local _ .vmem, ⟨9, _⟩ => ⟨S8, .f32⟩
  | .local _ .vmem, ⟨10, _⟩ => ⟨S32x8, .bf16⟩
  | .local _ .vmem, ⟨11, _⟩ => ⟨S32, .f32⟩
  | .local _ .vmem, ⟨12, _⟩ => ⟨S1x32, .bf16⟩
  | .local _ .vmem, ⟨13, _⟩ => ⟨S1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1024_S1024_0 : ∀ a, (![0] : Fin 1 → Nat) a + S1024.size a ≤ S1024.size a
  h_S1024 : 0 < S1024.numel
  transposes_S1024x768_p1_0_S768x1024 : S1024x768.Transposes [1, 0] S768x1024
  shapeCasts_S1024_S1x1024 : S1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  slices_S8x2048_o0_0_S8x1024 : S8x2048.Slices ![0, 0] S8x1024
  slices_S8x2048_o0_1024_S8x1024 : S8x2048.Slices ![0, 1024] S8x1024
  inb_S8_S8_0 : ∀ a, (![0] : Fin 1 → Nat) a + S8.size a ≤ S8.size a
  h_S8 : 0 < S8.numel
  transposes_S8x1024_p1_0_S1024x8 : S8x1024.Transposes [1, 0] S1024x8
  shapeCasts_S8_S1x8 : S8.ShapeCasts S1x8
  broadcasts_S1x8_S1024x8 : S1x8.Broadcasts S1024x8
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S32_S32_0 : ∀ a, (![0] : Fin 1 → Nat) a + S32.size a ≤ S32.size a
  h_S32 : 0 < S32.numel
  transposes_S32x8_p1_0_S8x32 : S32x8.Transposes [1, 0] S8x32
  shapeCasts_S32_S1x32 : S32.ShapeCasts S1x32
  broadcasts_S1x32_S1024x32 : S1x32.Broadcasts S1024x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1_S1_0 : ∀ a, (![0] : Fin 1 → Nat) a + S1.size a ≤ S1.size a
  h_S1 : 0 < S1.numel
  transposes_S1x32_p1_0_S32x1 : S1x32.Transposes [1, 0] S32x1
  shapeCasts_S1_S1x1 : S1.ShapeCasts S1x1
  broadcasts_S1x1_S1024x1 : S1x1.Broadcasts S1024x1
  dot_S1024x768_S768x1024_S1024x1024_1_0_0_1_n_n_wf : DotDims.WF S1024x768 S768x1024 S1024x1024 [1] [0] [0] [1] [] []
  dot_S1024x1024_S1024x8_S1024x8_1_0_0_1_n_n_wf : DotDims.WF S1024x1024 S1024x8 S1024x8 [1] [0] [0] [1] [] []
  dot_S1024x8_S8x32_S1024x32_1_0_0_1_n_n_wf : DotDims.WF S1024x8 S8x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S65536x768.size a
  hwx0_0 : ∀ i : grid0.Coords, EltTy.bits .f32 = 32 ∨ (Rect.block (s := S65536x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S65536x768.size a
  hwx0_1 : ∀ i : grid0.Coords, EltTy.bits .f32 = 32 ∨ (Rect.block (s := S65536x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S1024x768.size a
  hwx0_3 : ∀ i : grid0.Coords, EltTy.bits .bf16 = 32 ∨ (Rect.block (s := S1024x768) S1024x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x2048.size a ≤ S8x2048.size a
  hwx0_5 : ∀ i : grid0.Coords, EltTy.bits .bf16 = 32 ∨ (Rect.block (s := S8x2048) S8x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x8.size a ≤ S32x8.size a
  hwx0_7 : ∀ i : grid0.Coords, EltTy.bits .bf16 = 32 ∨ (Rect.block (s := S32x8) S32x8.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .bf16 = 32 ∨ (Rect.block (s := S1x32) S1x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S65536x1.size a
  hwx0_11 : ∀ i : grid0.Coords, EltTy.bits .f32 = 32 ∨ (Rect.block (s := S65536x1) S1024x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S65536x1.size a
  hwx0_12 : ∀ i : grid0.Coords, EltTy.bits .f32 = 32 ∨ (Rect.block (s := S65536x1) S1024x1.size (cc0_transform_12 i) (hinb0_12 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def dot_S1024x8_S8x32_S1024x32_1_0_0_1_n_n : DotDims S1024x8 S8x32 S1024x32 where
  lhsContracting := [1]
  rhsContracting := [0]
  lhsNonContracting := [0]
  rhsNonContracting := [1]
  lhsBatch := []
  rhsBatch := []
  wf := dot_S1024x8_S8x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S32x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S1024x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S1024x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x768 : Shape := ⟨2, ![65536, 768]⟩
abbrev S65536x1 : Shape := ⟨2, ![65536, 1]⟩
abbrev S1024x768 : Shape := ⟨2, ![1024, 768]⟩
abbrev S1024 : Shape := ⟨1, ![1024]⟩
abbrev S8x2048 : Shape := ⟨2, ![8, 2048]⟩
abbrev S8 : Shape := ⟨1, ![8]⟩
abbrev S32x8 : Shape := ⟨2, ![32, 8]⟩
abbrev S32 : Shape := ⟨1, ![32]⟩
abbrev S1x32 : Shape := ⟨2, ![1, 32]⟩
abbrev S1 : Shape := ⟨1, ![1]⟩
abbrev S768x1024 : Shape := ⟨2, ![768, 1024]⟩
abbrev S65536x1024 : Shape := ⟨2, ![65536, 1024]⟩
abbrev S1x1024 : Shape := ⟨2, ![1, 1024]⟩
abbrev S65536x2048 : Shape := ⟨2, ![65536, 2048]⟩
abbrev S_ : Shape := ⟨0, ![]⟩
abbrev S2048x8 : Shape := ⟨2, ![2048, 8]⟩
abbrev S65536x8 : Shape := ⟨2, ![65536, 8]⟩
abbrev S1x8 : Shape := ⟨2, ![1, 8]⟩
abbrev S8x32 : Shape := ⟨2, ![8, 32]⟩
abbrev S65536x32 : Shape := ⟨2, ![65536, 32]⟩
abbrev S32x1 : Shape := ⟨2, ![32, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S65536x768, .f32⟩
  | .hbm, ⟨2, _⟩ => ⟨S65536x1, .f32⟩
  | .hbm, ⟨3, _⟩ => ⟨S1024x768, .f32⟩
  | .hbm, ⟨4, _⟩ => ⟨S1024, .f32⟩
  | .hbm, ⟨5, _⟩ => ⟨S8x2048, .f32⟩
  | .hbm, ⟨6, _⟩ => ⟨S8, .f32⟩
  | .hbm, ⟨7, _⟩ => ⟨S32x8, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S768x1024, .f32⟩
  | .hbm, ⟨12, _⟩ => ⟨S65536x1024, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S768x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2048, .f32⟩
  | .hbm, ⟨22, _⟩ => ⟨S65536x2048, .f32⟩
  | .hbm, ⟨23, _⟩ => ⟨S65536x2048, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x2048, .f32⟩
  | .hbm, ⟨28, _⟩ => ⟨S65536x2048, .f32⟩
  | .hbm, ⟨29, _⟩ => ⟨S65536x2048, .f32⟩
  | .hbm, ⟨30, _⟩ => ⟨S65536x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S65536x2048, .f32⟩
  | .hbm, ⟨35, _⟩ => ⟨S65536x2048, .f32⟩
  | .hbm, ⟨36, _⟩ => ⟨S_, .f32⟩
  | .hbm, ⟨37, _⟩ => ⟨S65536x2048, .f32⟩
  | .hbm, ⟨38, _⟩ => ⟨S65536x2048, .f32⟩
  | .hbm, ⟨39, _⟩ => ⟨S2048x8, .f32⟩
  | .hbm, ⟨40, _⟩ => ⟨S65536x8, .f32⟩
  | .hbm, ⟨41, _⟩ => ⟨S1x8, .f32⟩
  | .hbm, ⟨42, _⟩ => ⟨S65536x8, .f32⟩
  | .hbm, ⟨43, _⟩ => ⟨S65536x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S65536x8, .f32⟩
  | .hbm, ⟨48, _⟩ => ⟨S65536x8, .f32⟩
  | .hbm, ⟨49, _⟩ => ⟨S_, .f32⟩
  | .hbm, ⟨50, _⟩ => ⟨S65536x8, .f32⟩
  | .hbm, ⟨51, _⟩ => ⟨S65536x8, .f32⟩
  | .hbm, ⟨52, _⟩ => ⟨S8x32, .f32⟩
  | .hbm, ⟨53, _⟩ => ⟨S65536x32, .f32⟩
  | .hbm, ⟨54, _⟩ => ⟨S1x32, .f32⟩
  | .hbm, ⟨55, _⟩ => ⟨S65536x32, .f32⟩
  | .hbm, ⟨56, _⟩ => ⟨S65536x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S65536x32, .f32⟩
  | .hbm, ⟨61, _⟩ => ⟨S65536x32, .f32⟩
  | .hbm, ⟨62, _⟩ => ⟨S_, .f32⟩
  | .hbm, ⟨63, _⟩ => ⟨S65536x32, .f32⟩
  | .hbm, ⟨64, _⟩ => ⟨S65536x32, .f32⟩
  | .hbm, ⟨65, _⟩ => ⟨S32x1, .f32⟩
  | .hbm, ⟨66, _⟩ => ⟨S65536x1, .f32⟩
  | .hbm, ⟨67, _⟩ => ⟨S1x1, .f32⟩
  | .hbm, ⟨68, _⟩ => ⟨S65536x1, .f32⟩
  | .hbm, ⟨69, _⟩ => ⟨S65536x1, .f32⟩
  | .hbm, ⟨70, _⟩ => ⟨S65536x1, .f32⟩
  | .hbm, ⟨71, _⟩ => ⟨S65536x1, .f32⟩
  | .hbm, ⟨72, _⟩ => ⟨S_, .f32⟩
  | .hbm, ⟨73, _⟩ => ⟨S65536x1, .f32⟩
  | .hbm, ⟨74, _⟩ => ⟨S65536x1, .f32⟩
  | .hbm, ⟨75, _⟩ => ⟨S_, .f32⟩
  | .hbm, ⟨76, _⟩ => ⟨S65536x1, .f32⟩
  | .hbm, ⟨77, _⟩ => ⟨S65536x1, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩

abbrev nD : Nat := 1
abbrev τ : Topo := Topo.v7x

variable {F : FTy → Type} [FloatOps F]

class Facts₀ : Prop where
  transposes_S1024x768_S768x1024_1_0 : S1024x768.Transposes [1, 0] S768x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  concatenates_S65536x1024_S65536x1024_S65536x2048_d1 : Shape.Concatenates [S65536x1024, S65536x1024] S65536x2048 1
  bcast_S65536x1_S65536x2048_0_1 : S65536x1.BroadcastsInDim S65536x2048 (![0, 1] : Fin 2 → Fin S65536x2048.rank)
  bcast_S_S65536x1 : S_.BroadcastsInDim S65536x1 (![] : Fin 0 → Fin S65536x1.rank)
  bcast_S_S65536x2048 : S_.BroadcastsInDim S65536x2048 (![] : Fin 0 → Fin S65536x2048.rank)
  transposes_S8x2048_S2048x8_1_0 : S8x2048.Transposes [1, 0] S2048x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  bcast_S_S65536x8 : S_.BroadcastsInDim S65536x8 (![] : Fin 0 → Fin S65536x8.rank)
  transposes_S32x8_S8x32_1_0 : S32x8.Transposes [1, 0] S8x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  transposes_S1x32_S32x1_1_0 : S1x32.Transposes [1, 0] S32x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x768_S768x1024_S65536x1024_1_0_0_1_n_n_wf : DotDims.WF S65536x768 S768x1024 S65536x1024 [1] [0] [0] [1] [] []
  dot_S65536x2048_S2048x8_S65536x8_1_0_0_1_n_n_wf : DotDims.WF S65536x2048 S2048x8 S65536x8 [1] [0] [0] [1] [] []
  dot_S65536x8_S8x32_S65536x32_1_0_0_1_n_n_wf : DotDims.WF S65536x8 S8x32 S65536x32 [1] [0] [0] [1] [] []
  dot_S65536x32_S32x1_S65536x1_1_0_0_1_n_n_wf : DotDims.WF S65536x32 S32x1 S65536x1 [1] [0] [0] [1] [] []

variable [Facts₀]

def dot_S65536x768_S768x1024_S65536x1024_1_0_0_1_n_n : DotDims S65536x768 S768x1024 S65536x1024 where
  lhsContracting := [1]
  rhsContracting := [0]
  lhsNonContracting := [0]
  rhsNonContracting := [1]
  lhsBatch := []
  rhsBatch := []
  wf := dot_S65536x768_S768x1024_S65536x1024_1_0_0_1_n_n_wf
def dot_S65536x2048_S2048x8_S65536x8_1_0_0_1_n_n : DotDims S65536x2048 S2048x8 S65536x8 where
  lhsContracting := [1]
  rhsContracting := [0]
  lhsNonContracting := [0]
  rhsNonContracting := [1]
  lhsBatch := []
  rhsBatch := []
  wf := dot_S65536x2048_S2048x8_S65536x8_1_0_0_1_n_n_wf
def dot_S65536x8_S8x32_S65536x32_1_0_0_1_n_n : DotDims S65536x8 S8x32 S65536x32 where
  lhsContracting := [1]
  rhsContracting := [0]
  lhsNonContracting := [0]
  rhsNonContracting := [1]
  lhsBatch := []
  rhsBatch := []
  wf := dot_S65536x8_S8x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf

class Facts : Prop extends Facts₀ where

variable [Facts]
-- ==== Proof.Spec.lean ====
/-
  One chess position through the evaluation network, as a function of the position's two feature rows, its
  side-to-move weight and the network's weights, on the extended reals.

  A feature row x (768 entries) gives the accumulator row  acc x j = (∑ k, x k · ftw j k) + ftb j  (1024 entries).
  With W and B the accumulator rows of the white and of the black features and s the side-to-move weight, the first
  dense layer reads the 2048 numbers  s · (W ‖ B) + (1 − s) · (B ‖ W),  each clamped to [0, 1]  (‖ lays two rows side
  by side). One program forms those numbers exactly so (`l1Cat`); the other forms the first half as  B + s · (W − B)
  and the second half as  W − s · (W − B),  and adds the two halves' products with the weight's two halves
  (`l1Blend`). For real W, B, s the two agree (`l1Blend_eq_l1Cat`): B + s (W − B) = s W + (1 − s) B and
  W − s (W − B) = s B + (1 − s) W, and a sum over 2048 columns is the sum over the first 1024 plus the sum over the
  last 1024. The rest of the network (clamp, 8 → 32, clamp, 32 → 1, logistic) is one function of the first layer's
  eight numbers (`rawOf`, `Ideal.logistic`).
-/
import Idealize.ShloMosaic.PureOps.Ideal
import Mathlib.Algebra.BigOperators.Fin
import Idealize.ShloMosaic.Lib.ValueIdx

noncomputable section

open scoped BigOperators

namespace Cert.Nnue

open Idealize.ShloMosaic Idealize.ShloMosaic.ValueIdx

/-- The clamp to [0, 1], as both programs spell it: the smaller of 1 and (the larger of 0 and x). -/
def clip01 (x : EReal) : EReal := min 1 (max 0 x)

/-- Column j of the first half of a 2048-wide row. -/
def lo (j : Fin 1024) : Fin 2048 := ⟨j.val, by have := j.isLt; omega⟩

/-- Column j of the second half of a 2048-wide row. -/
def hi (j : Fin 1024) : Fin 2048 := ⟨1024 + j.val, by have := j.isLt; omega⟩

/-- Entry j of a feature row's accumulator: the row against row j of the feature weights, plus the bias. -/
def ftAcc (x : Fin 768 → EReal) (ftw : Fin 1024 → Fin 768 → EReal) (ftb : Fin 1024 → EReal) (j : Fin 1024) : EReal :=
  (∑ k : Fin 768, x k * ftw j k) + ftb j

/-- The first dense layer before its clamp, the blend formed half by half:
    first half B + s (W − B), second half W − s (W − B). -/
def l1Blend (W B : Fin 1024 → EReal) (s : EReal) (l1w : Fin 8 → Fin 2048 → EReal) (l1b : Fin 8 → EReal) (e : Fin 8) : EReal :=
  ((∑ j : Fin 1024, clip01 (B j + s * (W j - B j)) * l1w e (lo j))
    + (∑ j : Fin 1024, clip01 (W j - s * (W j - B j)) * l1w e (hi j))) + l1b e

/-- Two 1024-entry rows laid side by side. -/
def cat (U V : Fin 1024 → EReal) (c : Fin 2048) : EReal :=
  if h : c.val < 1024 then U ⟨c.val, h⟩ else V ⟨c.val - 1024, by have := c.isLt; omega⟩

/-- The first dense layer before its clamp, the blend formed over the whole 2048-wide row:
    s · (W ‖ B) + (1 − s) · (B ‖ W). -/
def l1Cat (W B : Fin 1024 → EReal) (s : EReal) (l1w : Fin 8 → Fin 2048 → EReal) (l1b : Fin 8 → EReal) (e : Fin 8) : EReal :=
  (∑ c : Fin 2048, clip01 (s * cat W B c + (1 - s) * cat B W c) * l1w e c) + l1b e

/-- The second dense layer before its clamp, from the first layer's eight numbers. -/
def l2Of (h1 : Fin 8 → EReal) (l2w : Fin 32 → Fin 8 → EReal) (l2b : Fin 32 → EReal) (e : Fin 32) : EReal :=
  (∑ k : Fin 8, clip01 (h1 k) * l2w e k) + l2b e

/-- The network's raw output, from the first layer's eight numbers. -/
def rawOf (h1 : Fin 8 → EReal) (l2w : Fin 32 → Fin 8 → EReal) (l2b : Fin 32 → EReal) (l3w : Fin 32 → EReal) (l3b : EReal) : EReal :=
  (∑ k : Fin 32, clip01 (l2Of h1 l2w l2b k) * l3w k) + l3b

theorem cat_lo (U V : Fin 1024 → EReal) (j : Fin 1024) : cat U V (lo j) = U j := by
  unfold cat lo
  rw [dif_pos (show j.val < 1024 from j.isLt)]

theorem cat_hi (U V : Fin 1024 → EReal) (j : Fin 1024) : cat U V (hi j) = V j := by
  unfold cat hi
  rw [dif_neg (show ¬ (1024 + j.val < 1024) by omega)]
  exact congrArg V (Fin.ext (by show 1024 + j.val - 1024 = j.val; omega))

/-- A sum over the 2048 columns is the sum over the first half plus the sum over the second half. -/
theorem sum_halves {M : Type*} [AddCommMonoid M] (f : Fin 2048 → M) :
    ∑ c : Fin 2048, f c = (∑ j : Fin 1024, f (lo j)) + ∑ j : Fin 1024, f (hi j) := by
  have h := Fin.sum_univ_add (a := 1024) (b := 1024) (f : Fin (1024 + 1024) → M)
  refine h.trans ?_
  congr 1

/-- A finite sum of real numbers, taken on the extended reals, is a real number. -/
theorem sum_real {ι : Type*} (s : Finset ι) (f : ι → EReal) (h : ∀ i, ∃ r : ℝ, f i = r) : ∃ r : ℝ, ∑ i ∈ s, f i = r := by
  classical
  choose g hg using h
  refine ⟨∑ i ∈ s, g i, ?_⟩
  induction s using Finset.induction_on with
  | empty => simp
  | insert a s ha ih => rw [Finset.sum_insert ha, Finset.sum_insert ha, EReal.coe_add, ih, hg]

/-- The accumulator of a real feature row under real weights is real. -/
theorem ftAcc_real (x : Fin 768 → EReal) (ftw : Fin 1024 → Fin 768 → EReal) (ftb : Fin 1024 → EReal)
    (hx : ∀ k, ∃ r : ℝ, x k = r) (hw : ∀ j k, ∃ r : ℝ, ftw j k = r) (hb : ∀ j, ∃ r : ℝ, ftb j = r) (j : Fin 1024) :
    ∃ r : ℝ, ftAcc x ftw ftb j = r := by
  unfold ftAcc
  obtain ⟨a, ha⟩ := sum_real Finset.univ (fun k => x k * ftw j k) (fun k => by
    obtain ⟨u, hu⟩ := hx k; obtain ⟨v, hv⟩ := hw j k
    exact ⟨u * v, by rw [hu, hv, EReal.coe_mul]⟩)
  obtain ⟨b, hb'⟩ := hb j
  exact ⟨a + b, by rw [ha, hb', EReal.coe_add]⟩

/-- The two ways of forming the blend agree on real numbers. -/
theorem l1Blend_eq_l1Cat (W B : Fin 1024 → EReal) (s : EReal) (l1w : Fin 8 → Fin 2048 → EReal) (l1b : Fin 8 → EReal)
    (hW : ∀ j, ∃ r : ℝ, W j = r) (hB : ∀ j, ∃ r : ℝ, B j = r) (hs : ∃ r : ℝ, s = r) (e : Fin 8) :
    l1Blend W B s l1w l1b e = l1Cat W B s l1w l1b e := by
  unfold l1Blend l1Cat
  rw [sum_halves]
  obtain ⟨σ, rfl⟩ := hs
  congr 2
  · refine Finset.sum_congr rfl fun j _ => ?_
    obtain ⟨w, hw⟩ := hW j
    obtain ⟨b, hb⟩ := hB j
    rw [cat_lo, cat_lo, hw, hb]
    congr 2
    exact_mod_cast (by ring : b + σ * (w - b) = σ * w + (1 - σ) * b)
  · refine Finset.sum_congr rfl fun j _ => ?_
    obtain ⟨w, hw⟩ := hW j
    obtain ⟨b, hb⟩ := hB j
    rw [cat_hi, cat_hi, hw, hb]
    congr 2
    exact_mod_cast (by ring : w - σ * (w - b) = σ * b + (1 - σ) * w)

/-- The network's raw output for one position, the blend formed half by half. -/
def rawBlend (xw xb : Fin 768 → EReal) (s : EReal) (ftw : Fin 1024 → Fin 768 → EReal) (ftb : Fin 1024 → EReal)
    (l1w : Fin 8 → Fin 2048 → EReal) (l1b : Fin 8 → EReal) (l2w : Fin 32 → Fin 8 → EReal) (l2b : Fin 32 → EReal)
    (l3w : Fin 32 → EReal) (l3b : EReal) : EReal :=
  rawOf (l1Blend (ftAcc xw ftw ftb) (ftAcc xb ftw ftb) s l1w l1b) l2w l2b l3w l3b

/-- The network's raw output for one position, the blend formed over the whole 2048-wide row. -/
def rawCat (xw xb : Fin 768 → EReal) (s : EReal) (ftw : Fin 1024 → Fin 768 → EReal) (ftb : Fin 1024 → EReal)
    (l1w : Fin 8 → Fin 2048 → EReal) (l1b : Fin 8 → EReal) (l2w : Fin 32 → Fin 8 → EReal) (l2b : Fin 32 → EReal)
    (l3w : Fin 32 → EReal) (l3b : EReal) : EReal :=
  rawOf (l1Cat (ftAcc xw ftw ftb) (ftAcc xb ftw ftb) s l1w l1b) l2w l2b l3w l3b

/-- For real features, side-to-move weight, feature weights and feature bias the two forms give one number. -/
theorem rawBlend_eq_rawCat (xw xb : Fin 768 → EReal) (s : EReal) (ftw : Fin 1024 → Fin 768 → EReal) (ftb : Fin 1024 → EReal)
    (l1w : Fin 8 → Fin 2048 → EReal) (l1b : Fin 8 → EReal) (l2w : Fin 32 → Fin 8 → EReal) (l2b : Fin 32 → EReal)
    (l3w : Fin 32 → EReal) (l3b : EReal)
    (hw : ∀ k, ∃ r : ℝ, xw k = r) (hb : ∀ k, ∃ r : ℝ, xb k = r) (hs : ∃ r : ℝ, s = r)
    (hfw : ∀ j k, ∃ r : ℝ, ftw j k = r) (hfb : ∀ j, ∃ r : ℝ, ftb j = r) :
    rawBlend xw xb s ftw ftb l1w l1b l2w l2b l3w l3b = rawCat xw xb s ftw ftb l1w l1b l2w l2b l3w l3b := by
  unfold rawBlend rawCat
  refine congrArg (fun h => rawOf h l2w l2b l3w l3b) (funext fun e => ?_)
  exact l1Blend_eq_l1Cat _ _ s l1w l1b (ftAcc_real xw ftw ftb hw hfw hfb) (ftAcc_real xb ftw ftb hb hfw hfb) hs e

/-! ## All 65536 positions at once -/

/-- A matrix of extended reals. -/
abbrev Mat (a b : ℕ) : Type := (⟨2, ![a, b]⟩ : Shape).Idx → EReal

/-- A vector of extended reals. -/
abbrev Vect (a : ℕ) : Type := (⟨1, ![a]⟩ : Shape).Idx → EReal

/-- The position an index of a 65536 × 1 result belongs to. -/
def rowOf (i : (⟨2, ![65536, 1]⟩ : Shape).Idx) : Fin 65536 := ⟨(i 0).val, idx2_lt0 i⟩

/-- The raw outputs of all positions from the eleven argument arrays, the blend formed half by half. -/
def rawBlendArr (a0 a1 : Mat 65536 768) (a2 : Mat 65536 1) (a3 : Mat 1024 768) (a4 : Vect 1024) (a5 : Mat 8 2048)
    (a6 : Vect 8) (a7 : Mat 32 8) (a8 : Vect 32) (a9 : Mat 1 32) (a10 : Vect 1) : Mat 65536 1 :=
  fun i => rawBlend (fun k => a0 (ix2 (rowOf i) k)) (fun k => a1 (ix2 (rowOf i) k)) (a2 (ix2 (rowOf i) (0 : Fin 1)))
    (fun q k => a3 (ix2 q k)) (fun q => a4 (ix1 q)) (fun e c => a5 (ix2 e c)) (fun e => a6 (ix1 e))
    (fun q k => a7 (ix2 q k)) (fun q => a8 (ix1 q)) (fun k => a9 (ix2 (0 : Fin 1) k)) (a10 (ix1 (0 : Fin 1)))

/-- The raw outputs of all positions, the blend formed over the whole 2048-wide row. -/
def rawCatArr (a0 a1 : Mat 65536 768) (a2 : Mat 65536 1) (a3 : Mat 1024 768) (a4 : Vect 1024) (a5 : Mat 8 2048)
    (a6 : Vect 8) (a7 : Mat 32 8) (a8 : Vect 32) (a9 : Mat 1 32) (a10 : Vect 1) : Mat 65536 1 :=
  fun i => rawCat (fun k => a0 (ix2 (rowOf i) k)) (fun k => a1 (ix2 (rowOf i) k)) (a2 (ix2 (rowOf i) (0 : Fin 1)))
    (fun q k => a3 (ix2 q k)) (fun q => a4 (ix1 q)) (fun e c => a5 (ix2 e c)) (fun e => a6 (ix1 e))
    (fun q k => a7 (ix2 q k)) (fun q => a8 (ix1 q)) (fun k => a9 (ix2 (0 : Fin 1) k)) (a10 (ix1 (0 : Fin 1)))

/-- For real features, side-to-move weights, feature weights and feature bias the two forms give one array. -/
theorem rawBlendArr_eq_rawCatArr (a0 a1 : Mat 65536 768) (a2 : Mat 65536 1) (a3 : Mat 1024 768) (a4 : Vect 1024)
    (a5 : Mat 8 2048) (a6 : Vect 8) (a7 : Mat 32 8) (a8 : Vect 32) (a9 : Mat 1 32) (a10 : Vect 1)
    (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) :
    rawBlendArr a0 a1 a2 a3 a4 a5 a6 a7 a8 a9 a10 = rawCatArr a0 a1 a2 a3 a4 a5 a6 a7 a8 a9 a10 :=
  funext fun i => rawBlend_eq_rawCat _ _ _ _ _ _ _ _ _ _ _ (fun _ => h0 _) (fun _ => h1 _) (h2 _) (fun _ _ => h3 _) (fun _ => h4 _)

/-- The logistic function entry by entry. -/
def logisticArr (a : Mat 65536 1) : Mat 65536 1 := fun i => Ideal.logistic (a i)

/-- The f32 word 0x3F800000 is the number 1. -/
theorem one_f32 : Ideal.ofBits .f32 0x3F800000#32 = 1 := by
  simp [Ideal.ofBits, Ideal.ieee, -EReal.coe_mul]; norm_num

end Cert.Nnue

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibDenseRows.lean ====
/-
  A dense layer whose weight is kept row-per-output and turned inside the product, read at an index, at the ideal
  values and for any extents.

  For an input block x of M rows and K columns, a weight w of N rows and K columns and a bias b of N entries, the
  block  x · wᵀ + b  — the weight transposed to K × N, the plain matrix product into the zero accumulator, the bias
  viewed as one row and repeated over the M rows — is at (p, q) the number  (∑ k, x (p, k) · w (q, k)) + b q
  (`denseT_apply`; its parts `matmulT_apply` and `biasRow_apply`). A column [a, 1] repeated along the second axis
  reads at (p, c) the column's entry p (`colBroadcast_apply`).
-/
import Idealize.ShloMosaic.PureOps.Ideal.Laws
import Idealize.ShloMosaic.Lib.ValueIdx
import Idealize.ShloMosaic.Lib.ValueLayout
import proofs.«176070_j67053029425688_2_alg».proof.Proof.LibPlainMatmul

noncomputable section

open scoped BigOperators

namespace Idealize.ShloMosaic.DenseRows

open Idealize.ShloMosaic Idealize.ShloMosaic.ValueIdx

/-- The product of x with the transpose of w, at (p, q): row p of x against row q of w. -/
theorem matmulT_apply {M K N : ℕ} {φ₁ φ₂ : FTy} (x : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    matmul (DotDims.plain M K N) none x (transpose ⟨2, ![K, N]⟩ [1, 0] w ht)
        (constant ⟨2, ![M, N]⟩ .f32 0x00000000#32) (ix2 p q)
      = ∑ k : Fin K, x (ix2 p k) * w (ix2 q k) := by
  rw [PlainMatmul.plainMatmul_apply]
  refine Finset.sum_congr rfl fun k _ => ?_
  rw [transpose_ix2_apply]

/-- A bias of N entries viewed as one row and repeated over M rows reads, at (p, q), its entry q. -/
theorem biasRow_apply {M N : ℕ} {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  rw [broadcastTo_1b_ab_apply, shapeCast_a_1a_apply]

/-- The dense layer x · wᵀ + b at (p, q). -/
theorem denseT_apply {M K N : ℕ} {φ₁ φ₂ : FTy} (x : FVec Ideal ⟨2, ![M, K]⟩ φ₁) (w : FVec Ideal ⟨2, ![N, K]⟩ φ₂)
    (b : FVec Ideal ⟨1, ![N]⟩ .f32) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (matmul (DotDims.plain M K N) none x (transpose ⟨2, ![K, N]⟩ [1, 0] w ht)
          (constant ⟨2, ![M, N]⟩ .f32 0x00000000#32))
        (broadcastTo ⟨2, ![M, N]⟩ (shapeCast ⟨2, ![1, N]⟩ b hc) hb) (ix2 p q)
      = (∑ k : Fin K, x (ix2 p k) * w (ix2 q k)) + b (ix1 q) := by
  rw [addf_apply, matmulT_apply, biasRow_apply]

/-- A column [a, 1] repeated along the second axis reads, at (p, c), the column's entry p. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.DenseRows

end
-- ==== Proof.KernelRows.lean ====
/-
  What the kernel's body computes for one row of its block, at the ideal values.

  At a grid point the body holds 1024 positions: a block of white feature rows and one of black feature rows
  (1024 × 768 each), a column of side-to-move weights (1024 × 1) and the network's weights whole. Row p of what it
  stores depends on row p of the three blocks only: it is the network's raw output (`rawOf`) of the first layer formed
  half by half (`l1Blend`) from the two accumulator rows (`ftAcc`) — and, in the other result, its logistic. Each
  lemma below reads one named part of the body at an index: the two accumulators, the weighted difference
  s · (W − B), the two clamped halves of the blend, the two halves of the first-layer weight, the first half's product,
  and finally the rest of the network from those parts.
-/
import proofs.«176070_j67053029425688_2_alg».proof.Proof.Gen.KernelIdeal.Skeleton
import proofs.«176070_j67053029425688_2_alg».proof.Proof.Spec
import proofs.«176070_j67053029425688_2_alg».proof.Proof.LibDenseRows

noncomputable section

open scoped BigOperators

namespace Cert.KernelIdeal.Rows

open Cert.KernelIdeal Cert.KernelIdeal.Gen Idealize.ShloMosaic Idealize.ShloMosaic.ValueIdx Cert.Nnue

/-- The clamp as the body spells it — the smaller of the 1.0 vector and (the larger of the 0.0 vector and x) — at an
    index. -/
theorem clamp_apply {s : Shape} (x : FVec Ideal s .f32) (i : s.Idx) :
    minimumf (broadcast s (Scalar.ofBits (F := Ideal) .f32 0x3F800000#32))
      (maximumf (broadcast s (Scalar.ofBits (F := Ideal) .f32 0x00000000#32)) x) i = clip01 (x i) := by
  rw [minimumf_apply, maximumf_apply, broadcast_apply, broadcast_apply]
  unfold clip01
  rw [show Scalar.ofBits (F := Ideal) .f32 0x3F800000#32 = (1 : EReal) from one_f32,
    show Scalar.ofBits (F := Ideal) .f32 0x00000000#32 = (0 : EReal) from Ideal.ofBits_zero_f32]

/-- The white features' accumulator at (p, j): row p of the block against row j of the feature weights, plus the bias. -/
theorem accW_apply (v0 : FVec Ideal S1024x768 .f32) (v4 : FVec Ideal S1024x768 .bf16) (v6 : FVec Ideal S1024 .f32)
    (p j : Fin 1024) :
    k0_pay4 (F := Ideal) v0 v4 v6 (ix2 p j) = ftAcc (fun k => v0 (ix2 p k)) (fun q k => v4 (ix2 q k)) (fun q => v6 (ix1 q)) j := by
  unfold k0_pay4 k0_pay3 ftAcc
  rw [shapeCast_self]
  exact DenseRows.denseT_apply (M := 1024) (K := 768) (N := 1024) (truncf .bf16 v0 bitsLt_bf16_f32) v4 v6 _ _ _ p j

/-- The black features' accumulator at (p, j). -/
theorem accB_apply (v2 : FVec Ideal S1024x768 .f32) (v4 : FVec Ideal S1024x768 .bf16) (v6 : FVec Ideal S1024 .f32)
    (p j : Fin 1024) :
    k0_pay5 (F := Ideal) v2 v4 v6 (ix2 p j) = ftAcc (fun k => v2 (ix2 p k)) (fun q k => v4 (ix2 q k)) (fun q => v6 (ix1 q)) j := by
  unfold k0_pay5 k0_pay3 ftAcc
  rw [shapeCast_self]
  exact DenseRows.denseT_apply (M := 1024) (K := 768) (N := 1024) (truncf .bf16 v2 bitsLt_bf16_f32) v4 v6 _ _ _ p j

/-- The weighted difference at (p, j): row p's side-to-move weight times (white accumulator − black accumulator). -/
theorem diff_apply (v0 v2 : FVec Ideal S1024x768 .f32) (v4 : FVec Ideal S1024x768 .bf16) (v6 : FVec Ideal S1024 .f32)
    (v17 : FVec Ideal S1024x1 .f32) (p j : Fin 1024) :
    k0_pay6 (F := Ideal) v0 v2 v4 v6 v17 (ix2 p j)
      = v17 (ix2 p (0 : Fin 1)) * (k0_pay4 (F := Ideal) v0 v4 v6 (ix2 p j) - k0_pay5 (F := Ideal) v2 v4 v6 (ix2 p j)) := by
  unfold k0_pay6
  rw [mulf_apply, subf_apply, DenseRows.colBroadcast_apply]

/-- The clamped second half of the blend at (p, j): white accumulator − weighted difference, clamped. -/
theorem halfB_apply (v0 v2 : FVec Ideal S1024x768 .f32) (v4 : FVec Ideal S1024x768 .bf16) (v6 : FVec Ideal S1024 .f32)
    (v17 : FVec Ideal S1024x1 .f32) (p j : Fin 1024) :
    k0_pay7 (F := Ideal) v0 v2 v4 v6 v17 (ix2 p j)
      = clip01 (k0_pay4 (F := Ideal) v0 v4 v6 (ix2 p j) - k0_pay6 (F := Ideal) v0 v2 v4 v6 v17 (ix2 p j)) := by
  unfold k0_pay7
  rw [truncf_apply, clamp_apply, subf_apply]

/-- The second half of the first-layer weight at (e, j): column 1024 + j of row e. -/
theorem weightHi_apply (v33 : FVec Ideal S8x2048 .bf16) (e : Fin 8) (j : Fin 1024) :
    k0_pay9 (F := Ideal) v33 (ix2 e j) = v33 (ix2 e (hi j)) := by
  unfold k0_pay9 k0_pay8
  rw [shapeCast_self]
  exact slice2_axis1_apply 1024 v33 _ e j (hi j) rfl

/-- The first half's product at (p, e): the clamped first half of the blend (black accumulator + weighted difference)
    against the first 1024 columns of row e of the first-layer weight. -/
theorem prodLo_apply (v0 v2 : FVec Ideal S1024x768 .f32) (v4 : FVec Ideal S1024x768 .bf16) (v6 : FVec Ideal S1024 .f32)
    (v17 : FVec Ideal S1024x1 .f32) (v33 : FVec Ideal S8x2048 .bf16) (p : Fin 1024) (e : Fin 8) :
    k0_pay10 (F := Ideal) v0 v2 v4 v6 v17 v33 (ix2 p e)
      = ∑ j : Fin 1024, clip01 (k0_pay5 (F := Ideal) v2 v4 v6 (ix2 p j) + k0_pay6 (F := Ideal) v0 v2 v4 v6 v17 (ix2 p j)) * v33 (ix2 e (lo j)) := by
  unfold k0_pay10 k0_pay8
  rw [shapeCast_self]
  refine (DenseRows.matmulT_apply (M := 1024) (K := 1024) (N := 8) _ _ _ p e).trans ?_
  refine Finset.sum_congr rfl fun j _ => ?_
  rw [truncf_apply, clamp_apply, addf_apply]
  exact congrArg _ (slice2_axis1_apply 0 v33 _ e j (lo j) (by show j.val = 0 + j.val; omega))

/-- The rest of the network at row p, from the first half's product (v39), the clamped second half of the blend (v32),
    the second half of the first-layer weight (v36) and the remaining weights: the raw output of the first layer's eight
    numbers  (v39 (p, e) + ∑ j, v32 (p, j) · v36 (e, j)) + bias e. -/
theorem tail_apply (v32 : FVec Ideal S1024x1024 .bf16) (v36 : FVec Ideal S8x1024 .bf16) (v37 : FVec Ideal S8 .f32)
    (v39 : FVec Ideal S1024x8 .f32) (v51 : FVec Ideal S32x8 .bf16) (v53 : FVec Ideal S32 .f32)
    (v64 : FVec Ideal S1x32 .bf16) (v66 : FVec Ideal S1 .f32) (p : Fin 1024) :
    k0_pay1 (F := Ideal) v32 v36 v37 v39 v51 v53 v64 v66 (ix2 p (0 : Fin 1))
      = rawOf (fun e => (v39 (ix2 p e) + ∑ j : Fin 1024, v32 (ix2 p j) * v36 (ix2 e j)) + v37 (ix1 e))
          (fun q k => v51 (ix2 q k)) (fun q => v53 (ix1 q)) (fun k => v64 (ix2 (0 : Fin 1) k)) (v66 (ix1 (0 : Fin 1))) := by
  unfold k0_pay1 rawOf l2Of
  rw [shapeCast_self, shapeCast_self]
  refine (DenseRows.denseT_apply (M := 1024) (K := 32) (N := 1) _ v64 v66 _ _ _ p 0).trans ?_
  congr 1
  refine Finset.sum_congr rfl fun k _ => ?_
  congr 1
  rw [truncf_apply, clamp_apply]
  congr 1
  refine (DenseRows.denseT_apply (M := 1024) (K := 8) (N := 32) _ v51 v53 _ _ _ p k).trans ?_
  congr 1
  refine Finset.sum_congr rfl fun k' _ => ?_
  congr 1
  rw [truncf_apply, clamp_apply, addf_apply, addf_apply, DenseRows.biasRow_apply]
  beta_reduce
  refine congrArg clip01 (congrArg (· + v37 (ix1 k')) (congrArg (v39 (ix2 p k') + ·) ?_))
  exact DenseRows.matmulT_apply (M := 1024) (K := 1024) (N := 8) v32 v36 _ p k'

/-- The row of the block that an index of a 1024 × 1 block belongs to. -/
def blkRow (y : S1024x1.Idx) : Fin 1024 := ⟨(y 0).val, idx2_lt0 y⟩

/-- THE BODY, ROW BY ROW. What the body stores in its second result at an index y of the block is the network's raw
    output (blend formed half by half) of: row (blkRow y) of the white block, of the black block and of the side-to-move
    column, and the weights — each given here as a function the block's entries are read to (hypotheses h0 … h10), so
    that the blocks can later be a grid point's windows. -/
theorem body_row (x0 x1 : FVec Ideal S1024x768 .f32) (x2 : FVec Ideal S1024x1 .f32) (x3 : FVec Ideal S1024x768 .bf16)
    (x4 : FVec Ideal S1024 .f32) (x5 : FVec Ideal S8x2048 .bf16) (x6 : FVec Ideal S8 .f32) (x7 : FVec Ideal S32x8 .bf16)
    (x8 : FVec Ideal S32 .f32) (x9 : FVec Ideal S1x32 .bf16) (x10 : FVec Ideal S1 .f32) (y : S1024x1.Idx)
    (xw xb : Fin 768 → EReal) (s : EReal) (ftw : Fin 1024 → Fin 768 → EReal) (ftb : Fin 1024 → EReal)
    (l1w : Fin 8 → Fin 2048 → EReal) (l1b : Fin 8 → EReal) (l2w : Fin 32 → Fin 8 → EReal) (l2b : Fin 32 → EReal)
    (l3w : Fin 32 → EReal) (l3b : EReal)
    (h0 : ∀ k, x0 (ix2 (blkRow y) k) = xw k) (h1 : ∀ k, x1 (ix2 (blkRow y) k) = xb k)
    (h2 : x2 (ix2 (blkRow y) (0 : Fin 1)) = s) (h3 : ∀ q k, x3 (ix2 q k) = ftw q k) (h4 : ∀ q, x4 (ix1 q) = ftb q)
    (h5 : ∀ e c, x5 (ix2 e c) = l1w e c) (h6 : ∀ e, x6 (ix1 e) = l1b e) (h7 : ∀ q k, x7 (ix2 q k) = l2w q k)
    (h8 : ∀ q, x8 (ix1 q) = l2b q) (h9 : ∀ k, x9 (ix2 (0 : Fin 1) k) = l3w k) (h10 : x10 (ix1 (0 : Fin 1)) = l3b) :
    k0_pay1 (F := Ideal) (k0_pay7 x0 x1 x3 x4 x2) (k0_pay9 x5) x6 (k0_pay10 x0 x1 x3 x4 x2 x5) x7 x8 x9 x10 y
      = rawBlend xw xb s ftw ftb l1w l1b l2w l2b l3w l3b := by
  obtain ⟨p, u, rfl⟩ : ∃ (p : Fin 1024) (u : Fin 1), y = ix2 p u := ⟨y 0, y 1, eq_ix2 y⟩
  obtain rfl : u = 0 := Subsingleton.elim _ _
  have hp : blkRow (ix2 p (0 : Fin 1)) = p := rfl
  rw [hp] at h0 h1 h2
  have e0 : (fun k => x0 (ix2 p k)) = xw := funext h0
  have e1 : (fun k => x1 (ix2 p k)) = xb := funext h1
  have e3 : (fun q k => x3 (ix2 q k)) = ftw := funext fun q => funext fun k => h3 q k
  have e4 : (fun q => x4 (ix1 q)) = ftb := funext h4
  have e7 : (fun q k => x7 (ix2 q k)) = l2w := funext fun q => funext fun k => h7 q k
  have e8 : (fun q => x8 (ix1 q)) = l2b := funext h8
  have e9 : (fun k => x9 (ix2 (0 : Fin 1) k)) = l3w := funext h9
  have hW : ∀ j : Fin 1024, k0_pay4 (F := Ideal) x0 x3 x4 (ix2 p j) = ftAcc xw ftw ftb j := fun j => by
    rw [accW_apply, e0, e3, e4]
  have hB : ∀ j : Fin 1024, k0_pay5 (F := Ideal) x1 x3 x4 (ix2 p j) = ftAcc xb ftw ftb j := fun j => by
    rw [accB_apply, e1, e3, e4]
  have hD : ∀ j : Fin 1024, k0_pay6 (F := Ideal) x0 x1 x3 x4 x2 (ix2 p j)
      = s * (ftAcc xw ftw ftb j - ftAcc xb ftw ftb j) := fun j => by
    rw [diff_apply, hW, hB, h2]
  rw [tail_apply, e7, e8, e9, h10]
  unfold rawBlend l1Blend
  refine congrArg (fun h => rawOf h l2w l2b l3w l3b) (funext fun e => ?_)
  rw [prodLo_apply, h6]
  refine congrArg (· + l1b e) ?_
  refine congrArg₂ (· + ·) (Finset.sum_congr rfl fun j _ => ?_) (Finset.sum_congr rfl fun j _ => ?_)
  · rw [hB, hD, h5]
  · rw [halfB_apply, weightHi_apply, hW, hD, h5]

end Cert.KernelIdeal.Rows

end
-- ==== Proof.KernelArray.lean ====
/-
  From blocks to whole arrays: what the kernel's two result arrays hold after its run, at the ideal values.

  The grid has 64 points; point t works on positions 1024 t … 1024 t + 1023: its windows on the white features, the black
  features, the side-to-move column and the two results are block t of their arrays, and its windows on the eight weight
  arrays are those arrays whole (all this is decided once over the 64 points, `idx_facts`). So an entry of a moving
  window's block is the array's entry 1024 t rows further down (`blkW_apply`, `blkB_apply`, `blkS_apply`), an entry of a
  weight window's block is the array's entry (`blkFtw_apply` …), and by the row-by-row reading of the body what point t
  writes back is block t of ONE function of the arrays — the raw outputs of all positions, and their logistic
  (`flushedRaw_eq`, `flushedOut_eq`). The 64 blocks cover the 65536 rows (`coverRaw`, `coverOut`: row r is in block
  r / 1024), so the result arrays end holding that function (`finalRaw`, `finalOut`). The four weight arrays the windows
  read are the arguments narrowed to a shorter float format by the program's first four operations, which at the ideal
  values changes nothing (`V_ftw` …). `run` is the kernel's run with both results so named.
-/
import proofs.«176070_j67053029425688_2_alg».proof.Proof.Gen.KernelIdeal.Value
import proofs.«176070_j67053029425688_2_alg».proof.Proof.KernelRows
import Idealize.ShloMosaic.Lib.Pipeline.Value
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Nnue
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 64 grid points: the three moving input windows and the two results are at
    block t along the rows, every weight window at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## A window's block read as its array -/

/-- The white features' block at point t: row p of the block is row 1024 t + p of the array. -/
theorem blkW_apply (c : Dev nD) (t : Fin cfg0.N) (p : Fin 1024) (k : Fin 768) (r : Fin 65536)
    (hr : r.val = t.val * 1024 + p.val) :
    (iblk m c 0 t : FVec Ideal S1024x768 .f32) (ix2 p k) = (V m c main_arg0 : Mat 65536 768) (ix2 r k) := by
  obtain ⟨⟨e0, e1⟩, -⟩ := idx_facts t
  unfold iblk
  rw [View.read_apply]
  show V m c main_arg0 _ = V m c main_arg0 _
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 768 + 1 * k.val = k.val; rw [e1]; omega

/-- The black features' block at point t. -/
theorem blkB_apply (c : Dev nD) (t : Fin cfg0.N) (p : Fin 1024) (k : Fin 768) (r : Fin 65536)
    (hr : r.val = t.val * 1024 + p.val) :
    (iblk m c 1 t : FVec Ideal S1024x768 .f32) (ix2 p k) = (V m c main_arg1 : Mat 65536 768) (ix2 r k) := by
  obtain ⟨-, ⟨e0, e1⟩, -⟩ := idx_facts t
  unfold iblk
  rw [View.read_apply]
  show V m c main_arg1 _ = V m c main_arg1 _
  refine congrArg _ (funext fun a => Fin.ext ?_)
  match a with
  | ⟨0, _⟩ => show win0_1.index t (0 : Fin 2) * 1024 + 1 * p.val = r.val; rw [e0, hr]; omega
  | ⟨1, _⟩ => show win0_1.index t (1 : Fin 2) * 768 + 1 * k.val = k.val; rw [e1]; omega

/-- The side-to-move column's block at point t. -/
theorem blkS_apply (c : Dev nD) (t : Fin cfg0.N) (p : Fin 1024) (r : Fin 65536)
    (hr : r.val = t.val * 1024 + p.val) :
    (iblk m c 2 t : FVec Ideal S1024x1 .f32) (ix2 p (0 : Fin 1)) = (V m c main_arg2 : Mat 65536 1) (ix2 r (0 : Fin 1)) := by
  obtain ⟨-, -, ⟨e0, e1⟩, -⟩ := idx_facts t
  unfold iblk
  rw [View.read_apply]
  show V m c main_arg2 _ = V m c main_arg2 _
  refine congrArg _ (funext fun a => Fin.ext ?_)
  match a with
  | ⟨0, _⟩ => show win0_2.index t (0 : Fin 2) * 1024 + 1 * p.val = r.val; rw [e0, hr]; omega
  | ⟨1, _⟩ => show win0_2.index t (1 : Fin 2) * 1 + 1 * 0 = 0; rw [e1]

/-- The feature weights' block is the array. -/
theorem blkFtw_apply (c : Dev nD) (t : Fin cfg0.N) (q : Fin 1024) (k : Fin 768) :
    (iblk m c 3 t : FVec Ideal S1024x768 .bf16) (ix2 q k) = (V m c main_v0 : Mat 1024 768) (ix2 q k) := by
  obtain ⟨-, -, -, ⟨e0, e1⟩, -⟩ := idx_facts t
  unfold iblk
  rw [View.read_apply]
  show V m c main_v0 _ = V m c main_v0 _
  refine congrArg _ (funext fun a => Fin.ext ?_)
  match a with
  | ⟨0, _⟩ => show win0_3.index t (0 : Fin 2) * 1024 + 1 * q.val = q.val; rw [e0]; omega
  | ⟨1, _⟩ => show win0_3.index t (1 : Fin 2) * 768 + 1 * k.val = k.val; rw [e1]; omega

/-- The feature bias's block is the array. -/
theorem blkFtb_apply (c : Dev nD) (t : Fin cfg0.N) (q : Fin 1024) :
    (iblk m c 4 t : FVec Ideal S1024 .f32) (ix1 q) = (V m c main_arg4 : Vect 1024) (ix1 q) := by
  obtain ⟨-, -, -, -, e0, -⟩ := idx_facts t
  unfold iblk
  rw [View.read_apply]
  show V m c main_arg4 _ = V m c main_arg4 _
  refine congrArg _ (funext fun a => Fin.ext ?_)
  match a with
  | ⟨0, _⟩ => show win0_4.index t (0 : Fin 1) * 1024 + 1 * q.val = q.val; rw [e0]; omega

/-- The first layer's weight block is the array. -/
theorem blkL1w_apply (c : Dev nD) (t : Fin cfg0.N) (e : Fin 8) (k : Fin 2048) :
    (iblk m c 5 t : FVec Ideal S8x2048 .bf16) (ix2 e k) = (V m c main_v1 : Mat 8 2048) (ix2 e k) := by
  obtain ⟨-, -, -, -, -, ⟨e0, e1⟩, -⟩ := idx_facts t
  unfold iblk
  rw [View.read_apply]
  show V m c main_v1 _ = V m c main_v1 _
  refine congrArg _ (funext fun a => Fin.ext ?_)
  match a with
  | ⟨0, _⟩ => show win0_5.index t (0 : Fin 2) * 8 + 1 * e.val = e.val; rw [e0]; omega
  | ⟨1, _⟩ => show win0_5.index t (1 : Fin 2) * 2048 + 1 * k.val = k.val; rw [e1]; omega

/-- The first layer's bias block is the array. -/
theorem blkL1b_apply (c : Dev nD) (t : Fin cfg0.N) (e : Fin 8) :
    (iblk m c 6 t : FVec Ideal S8 .f32) (ix1 e) = (V m c main_arg6 : Vect 8) (ix1 e) := by
  obtain ⟨-, -, -, -, -, -, e0, -⟩ := idx_facts t
  unfold iblk
  rw [View.read_apply]
  show V m c main_arg6 _ = V m c main_arg6 _
  refine congrArg _ (funext fun a => Fin.ext ?_)
  match a with
  | ⟨0, _⟩ => show win0_6.index t (0 : Fin 1) * 8 + 1 * e.val = e.val; rw [e0]; omega

/-- The second layer's weight block is the array. -/
theorem blkL2w_apply (c : Dev nD) (t : Fin cfg0.N) (q : Fin 32) (k : Fin 8) :
    (iblk m c 7 t : FVec Ideal S32x8 .bf16) (ix2 q k) = (V m c main_v2 : Mat 32 8) (ix2 q k) := by
  obtain ⟨-, -, -, -, -, -, -, ⟨e0, e1⟩, -⟩ := idx_facts t
  unfold iblk
  rw [View.read_apply]
  show V m c main_v2 _ = V m c main_v2 _
  refine congrArg _ (funext fun a => Fin.ext ?_)
  match a with
  | ⟨0, _⟩ => show win0_7.index t (0 : Fin 2) * 32 + 1 * q.val = q.val; rw [e0]; omega
  | ⟨1, _⟩ => show win0_7.index t (1 : Fin 2) * 8 + 1 * k.val = k.val; rw [e1]; omega

/-- The second layer's bias block is the array. -/
theorem blkL2b_apply (c : Dev nD) (t : Fin cfg0.N) (q : Fin 32) :
    (iblk m c 8 t : FVec Ideal S32 .f32) (ix1 q) = (V m c main_arg8 : Vect 32) (ix1 q) := by
  obtain ⟨-, -, -, -, -, -, -, -, e0, -⟩ := idx_facts t
  unfold iblk
  rw [View.read_apply]
  show V m c main_arg8 _ = V m c main_arg8 _
  refine congrArg _ (funext fun a => Fin.ext ?_)
  match a with
  | ⟨0, _⟩ => show win0_8.index t (0 : Fin 1) * 32 + 1 * q.val = q.val; rw [e0]; omega

/-- The third layer's weight block is the array. -/
theorem blkL3w_apply (c : Dev nD) (t : Fin cfg0.N) (k : Fin 32) :
    (iblk m c 9 t : FVec Ideal S1x32 .bf16) (ix2 (0 : Fin 1) k) = (V m c main_v3 : Mat 1 32) (ix2 (0 : Fin 1) k) := by
  obtain ⟨-, -, -, -, -, -, -, -, -, ⟨e0, e1⟩, -⟩ := idx_facts t
  unfold iblk
  rw [View.read_apply]
  show V m c main_v3 _ = V m c main_v3 _
  refine congrArg _ (funext fun a => Fin.ext ?_)
  match a with
  | ⟨0, _⟩ => show win0_9.index t (0 : Fin 2) * 1 + 1 * 0 = 0; rw [e0]
  | ⟨1, _⟩ => show win0_9.index t (1 : Fin 2) * 32 + 1 * k.val = k.val; rw [e1]; omega

/-- The third layer's bias block is the array. -/
theorem blkL3b_apply (c : Dev nD) (t : Fin cfg0.N) :
    (iblk m c 10 t : FVec Ideal S1 .f32) (ix1 (0 : Fin 1)) = (V m c main_arg10 : Vect 1) (ix1 (0 : Fin 1)) := by
  obtain ⟨-, -, -, -, -, -, -, -, -, -, e0, -⟩ := idx_facts t
  unfold iblk
  rw [View.read_apply]
  show V m c main_arg10 _ = V m c main_arg10 _
  refine congrArg _ (funext fun a => Fin.ext ?_)
  match a with
  | ⟨0, _⟩ => show win0_10.index t (0 : Fin 1) * 1 + 1 * 0 = 0; rw [e0]

/-! ## What a point writes back -/

/-- The body's second result at an index y of point t's block is the raw output of position 1024 t + (row of y), as a
    function of the arrays the region finds. -/
theorem pointRaw (c : Dev nD) (t : Fin cfg0.N) (y : S1024x1.Idx) (i : (⟨2, ![65536, 1]⟩ : Shape).Idx)
    (hi : (rowOf i).val = t.val * 1024 + (Rows.blkRow y).val) :
    k0_pay1 (F := Ideal) (k0_pay7 (iblk m c 0 t) (iblk m c 1 t) (iblk m c 3 t) (iblk m c 4 t) (iblk m c 2 t))
        (k0_pay9 (iblk m c 5 t)) (iblk m c 6 t)
        (k0_pay10 (iblk m c 0 t) (iblk m c 1 t) (iblk m c 3 t) (iblk m c 4 t) (iblk m c 2 t) (iblk m c 5 t))
        (iblk m c 7 t) (iblk m c 8 t) (iblk m c 9 t) (iblk m c 10 t) y
      = rawBlendArr (V m c main_arg0) (V m c main_arg1) (V m c main_arg2) (V m c main_v0) (V m c main_arg4) (V m c main_v1) (V m c main_arg6) (V m c main_v2) (V m c main_arg8) (V m c main_v3) (V m c main_arg10) i := by
  unfold rawBlendArr
  exact Rows.body_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) y _ _ _ _ _ _ _ _ _ _ _
    (fun k => blkW_apply m c t _ k _ hi) (fun k => blkB_apply m c t _ k _ hi) (blkS_apply m c t _ _ hi)
    (fun q k => blkFtw_apply m c t q k) (fun q => blkFtb_apply m c t q) (fun e k => blkL1w_apply m c t e k)
    (fun e => blkL1b_apply m c t e) (fun q k => blkL2w_apply m c t q k) (fun q => blkL2b_apply m c t q)
    (fun k => blkL3w_apply m c t k) (blkL3b_apply m c t)

/-- The row of the array under an index y of a result window's block at point t (the two result windows move alike). -/
theorem row_emb12 (t : Fin cfg0.N) (y : ((cfg0.win 12).xblock (grid0.coords t)).Idx) :
    (rowOf (((cfg0.win 12).blk t).view.emb y)).val = t.val * 1024 + (Rows.blkRow y).val := by
  obtain ⟨-, -, -, -, -, -, -, -, -, -, -, -, ⟨e0, -⟩⟩ := idx_facts t
  show win0_12.index t (0 : Fin 2) * 1024 + 1 * (y 0).val = t.val * 1024 + (y 0).val
  rw [e0]; omega

theorem row_emb11 (t : Fin cfg0.N) (y : ((cfg0.win 11).xblock (grid0.coords t)).Idx) :
    (rowOf (((cfg0.win 11).blk t).view.emb y)).val = t.val * 1024 + (Rows.blkRow y).val := by
  obtain ⟨-, -, -, -, -, -, -, -, -, -, -, ⟨e0, -⟩, -⟩ := idx_facts t
  show win0_11.index t (0 : Fin 2) * 1024 + 1 * (y 0).val = t.val * 1024 + (y 0).val
  rw [e0]; omega

/-- WHAT POINT t WRITES BACK to the second result is block t of the raw outputs of all positions. -/
theorem flushedRaw_eq (c : Dev nD) (t : Fin cfg0.N) :
    (dats m 0 c).flushed 12 t = ((cfg0.win 12).blk t).view.read (Elt Ideal) (rawBlendArr (V m c main_arg0) (V m c main_arg1) (V m c main_arg2) (V m c main_v0) (V m c main_arg4) (V m c main_v1) (V m c main_arg6) (V m c main_v2) (V m c main_arg8) (V m c main_v3) (V m c main_arg10)) := by
  rw [Value.flushed12]
  unfold out0_12
  rw [View.canon_unit_zero hz2]
  simp only [View.ld_unit_zero (S := S1024x768) hz2, View.ld_unit_zero (S := S1024x1) hz2,
    View.ld_unit_zero (S := S1024) hz1, View.ld_unit_zero (S := S8x2048) hz2, View.ld_unit_zero (S := S8) hz1,
    View.ld_unit_zero (S := S32x8) hz2, View.ld_unit_zero (S := S32) hz1, View.ld_unit_zero (S := S1x32) hz2,
    View.ld_unit_zero (S := S1) hz1]
  funext y
  exact pointRaw m c t y _ (row_emb12 t y)

/-- WHAT POINT t WRITES BACK to the first result is block t of the logistic of those raw outputs. -/
theorem flushedOut_eq (c : Dev nD) (t : Fin cfg0.N) :
    (dats m 0 c).flushed 11 t
      = ((cfg0.win 11).blk t).view.read (Elt Ideal) (logisticArr (rawBlendArr (V m c main_arg0) (V m c main_arg1) (V m c main_arg2) (V m c main_v0) (V m c main_arg4) (V m c main_v1) (V m c main_arg6) (V m c main_v2) (V m c main_arg8) (V m c main_v3) (V m c main_arg10))) := by
  rw [Value.flushed11]
  unfold out0_11
  rw [View.canon_unit_zero hz2]
  simp only [View.ld_unit_zero (S := S1024x768) hz2, View.ld_unit_zero (S := S1024x1) hz2,
    View.ld_unit_zero (S := S1024) hz1, View.ld_unit_zero (S := S8x2048) hz2, View.ld_unit_zero (S := S8) hz1,
    View.ld_unit_zero (S := S32x8) hz2, View.ld_unit_zero (S := S32) hz1, View.ld_unit_zero (S := S1x32) hz2,
    View.ld_unit_zero (S := S1) hz1]
  funext y
  unfold k0_pay2
  exact congrArg Ideal.logistic (pointRaw m c t y _ (row_emb11 t y))

/-! ## The 64 blocks cover the result arrays -/

/-- An index of the second result is in point t's block iff each coordinate is in the block's range on its axis. -/
theorem mem_blkRaw (t : Fin cfg0.N) (i : S65536x1.Idx) :
    i ∈ ((cfg0.win 12).blk t).view.set ↔ ∀ a : Fin 2, win0_12.index t a * S1024x1.size a ≤ (i a).val
      ∧ (i a).val < win0_12.index t a * S1024x1.size a + S1024x1.size a := by
  show i ∈ ((View.whole main_v4_1).slice (win0_12.rect t)).set ↔ _
  rw [View.set_slice_whole, Rect.mem_set_unit]
  exact Iff.rfl

theorem mem_blkOut (t : Fin cfg0.N) (i : S65536x1.Idx) :
    i ∈ ((cfg0.win 11).blk t).view.set ↔ ∀ a : Fin 2, win0_11.index t a * S1024x1.size a ≤ (i a).val
      ∧ (i a).val < win0_11.index t a * S1024x1.size a + S1024x1.size a := by
  show i ∈ ((View.whole main_v4_0).slice (win0_11.rect t)).set ↔ _
  rw [View.set_slice_whole, Rect.mem_set_unit]
  exact Iff.rfl

/-- Row r of the second result is in the block of point r / 1024. -/
theorem coverRaw (i : S65536x1.Idx) :
    ∃ t : Fin cfg0.N, (cfg0.win 12).flush t = true ∧ i ∈ ((cfg0.win 12).blk t).view.set := by
  have hi0 : (i 0).val < 65536 := (i 0).isLt
  have hi1 : (i 1).val < 1 := (i 1).isLt
  have hN : cfg0.N = 64 := N_0
  let t : Fin cfg0.N := ⟨(i 0).val / 1024, by rw [hN]; omega⟩
  have ht : t.val = (i 0).val / 1024 := rfl
  obtain ⟨-, -, -, -, -, -, -, -, -, -, -, -, ⟨e0, e1⟩⟩ := idx_facts t
  refine ⟨t, flush0_12 t, ?_⟩
  rw [mem_blkRaw]
  intro a
  match a with
  | ⟨0, _⟩ =>
    show win0_12.index t (0 : Fin 2) * 1024 ≤ (i 0).val ∧ (i 0).val < win0_12.index t (0 : Fin 2) * 1024 + 1024
    rw [e0, ht]; omega
  | ⟨1, _⟩ =>
    show win0_12.index t (1 : Fin 2) * 1 ≤ (i 1).val ∧ (i 1).val < win0_12.index t (1 : Fin 2) * 1 + 1
    rw [e1]; omega

theorem coverOut (i : S65536x1.Idx) :
    ∃ t : Fin cfg0.N, (cfg0.win 11).flush t = true ∧ i ∈ ((cfg0.win 11).blk t).view.set := by
  have hi0 : (i 0).val < 65536 := (i 0).isLt
  have hi1 : (i 1).val < 1 := (i 1).isLt
  have hN : cfg0.N = 64 := N_0
  let t : Fin cfg0.N := ⟨(i 0).val / 1024, by rw [hN]; omega⟩
  have ht : t.val = (i 0).val / 1024 := rfl
  obtain ⟨-, -, -, -, -, -, -, -, -, -, -, ⟨e0, e1⟩, -⟩ := idx_facts t
  refine ⟨t, flush0_11 t, ?_⟩
  rw [mem_blkOut]
  intro a
  match a with
  | ⟨0, _⟩ =>
    show win0_11.index t (0 : Fin 2) * 1024 ≤ (i 0).val ∧ (i 0).val < win0_11.index t (0 : Fin 2) * 1024 + 1024
    rw [e0, ht]; omega
  | ⟨1, _⟩ =>
    show win0_11.index t (1 : Fin 2) * 1 ≤ (i 1).val ∧ (i 1).val < win0_11.index t (1 : Fin 2) * 1 + 1
    rw [e1]; omega

/-! ## The weight arrays the windows read -/

/-- The feature weights the region finds are the argument (narrowed to a shorter float format: no change). -/
theorem V_ftw (c : Dev nD) : (V m c main_v0 : Mat 1024 768) = (m ((c : Thread nD τ).loc main_arg3)) := by
  dsimp only [Gen.V, Gen.hostOps0]; after_results; rfl

theorem V_l1w (c : Dev nD) : (V m c main_v1 : Mat 8 2048) = (m ((c : Thread nD τ).loc main_arg5)) := by
  dsimp only [Gen.V, Gen.hostOps0]; after_results; rfl

theorem V_l2w (c : Dev nD) : (V m c main_v2 : Mat 32 8) = (m ((c : Thread nD τ).loc main_arg7)) := by
  dsimp only [Gen.V, Gen.hostOps0]; after_results; rfl

theorem V_l3w (c : Dev nD) : (V m c main_v3 : Mat 1 32) = (m ((c : Thread nD τ).loc main_arg9)) := by
  dsimp only [Gen.V, Gen.hostOps0]; after_results; rfl

/-! ## The result arrays after the run -/

/-- The second result array ends holding the raw outputs of all positions, as a function of the eleven arguments. -/
theorem finalRaw (c : Dev nD) :
    (dats m 0 c).arrAt 12 cfg0.N = rawBlendArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [(dats m 0 c).arrAt_eq_of_cover 12 _ (fun t _ => flushedRaw_eq m c t) coverRaw,
    V_ftw, V_l1w, V_l2w, V_l3w, V_main_arg0, V_main_arg1, V_main_arg2, V_main_arg4, V_main_arg6, V_main_arg8, V_main_arg10]

/-- The first result array ends holding their logistic. -/
theorem finalOut (c : Dev nD) :
    (dats m 0 c).arrAt 11 cfg0.N = logisticArr (rawBlendArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [(dats m 0 c).arrAt_eq_of_cover 11 _ (fun t _ => flushedOut_eq m c t) coverOut,
    V_ftw, V_l1w, V_l2w, V_l3w, V_main_arg0, V_main_arg1, V_main_arg2, V_main_arg4, V_main_arg6, V_main_arg8, V_main_arg10]

/-- THE KERNEL'S RUN: both result arrays as functions of the arguments, the arguments unchanged. -/
theorem run : θ_run defs (onTc (τ := τ) (main (F := Ideal))) ⟨m, fun _ => 0, ρ⟩ fun r => ∀ c : Dev nD,
      r.2.mem ((c : Thread nD τ).loc main_v4_0) = logisticArr (rawBlendArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      ∧ r.2.mem ((c : Thread nD τ).loc main_v4_1) = rawBlendArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (finalOut m c), (h c).2.1.trans (finalRaw m c), (h c).2.2⟩)
    (Value.run_blocks m ρ)

end Cert.KernelIdeal.Whole

end
-- ==== Proof.RefRows.lean ====
/-
  What the reference computes for one position, at the ideal values.

  The reference works on whole arrays of 65536 positions; every operation of it acts row by row, so row r of each
  intermediate array depends on row r of the white features, of the black features and of the side-to-move column
  only. Reading its operations one at a time at an index: the two accumulators are `ftAcc` of row r; the two
  concatenations are the accumulator rows laid side by side (`cat`); the blend is  s · (W ‖ B) + (1 − s) · (B ‖ W);
  the first dense layer is `l1Cat`; the rest of the network is `rawOf`, and the first result its logistic — the
  reference's  1 / (1 + exp (−x))  is the logistic function as the ideal values define it.
-/
import proofs.«176070_j67053029425688_2_alg».proof.Proof.Gen.ReferenceIdeal.Read
import proofs.«176070_j67053029425688_2_alg».proof.Proof.Spec

noncomputable section

open scoped BigOperators

namespace Cert.ReferenceIdeal.Rows

open Cert.ReferenceIdeal Cert.ReferenceIdeal.Gen Cert.ReferenceIdeal.Read Idealize.ShloMosaic Idealize.ShloMosaic.ValueIdx Cert.Nnue

/-- The white features' accumulator at (r, j). -/
theorem accW_apply (x0 : (⟨S65536x768, .f32⟩ : BufTy).Contents (Elt Ideal)) (x3 : (⟨S1024x768, .f32⟩ : BufTy).Contents (Elt Ideal)) (x4 : (⟨S1024, .f32⟩ : BufTy).Contents (Elt Ideal)) (r : Fin 65536) (j : Fin 1024) :
    val_main_v4 (F := Ideal) x0 x3 x4 (ix2 r j) = ftAcc (fun k => x0 (ix2 r k)) (fun q k => x3 (ix2 q k)) (fun q => x4 (ix1 q)) j := by
  rw [val_main_v4_apply, val_main_v1_apply, val_main_v3_apply, val_main_v2_apply]
  unfold ftAcc
  have e1 : ∀ k : Fin 768, lidx_main_v1 (ix2 r j) k = ix2 r k := fun k => funext fun a => Fin.ext (by
    match a with | ⟨0, _⟩ => rfl | ⟨1, _⟩ => rfl)
  have e2 : ∀ k : Fin 768, idx_main_v0 (ridx_main_v1 (ix2 r j) k) = ix2 j k := fun k => funext fun a => Fin.ext (by
    match a with | ⟨0, _⟩ => rfl | ⟨1, _⟩ => rfl)
  have e3 : idx_main_v2 (idx_main_v3 (ix2 r j)) = ix1 j := funext fun a => Fin.ext (by
    match a with | ⟨0, _⟩ => rfl)
  simp only [Ideal.addf_def, val_main_v0_apply, e1, e2, e3]

/-- The black features' accumulator at (r, j). -/
theorem accB_apply (x1 : (⟨S65536x768, .f32⟩ : BufTy).Contents (Elt Ideal)) (x3 : (⟨S1024x768, .f32⟩ : BufTy).Contents (Elt Ideal)) (x4 : (⟨S1024, .f32⟩ : BufTy).Contents (Elt Ideal)) (r : Fin 65536) (j : Fin 1024) :
    val_main_v9 (F := Ideal) x1 x3 x4 (ix2 r j) = ftAcc (fun k => x1 (ix2 r k)) (fun q k => x3 (ix2 q k)) (fun q => x4 (ix1 q)) j := by
  rw [val_main_v9_apply, val_main_v6_apply, val_main_v8_apply, val_main_v7_apply]
  unfold ftAcc
  have e1 : ∀ k : Fin 768, lidx_main_v6 (ix2 r j) k = ix2 r k := fun k => funext fun a => Fin.ext (by
    match a with | ⟨0, _⟩ => rfl | ⟨1, _⟩ => rfl)
  have e2 : ∀ k : Fin 768, idx_main_v5 (ridx_main_v6 (ix2 r j) k) = ix2 j k := fun k => funext fun a => Fin.ext (by
    match a with | ⟨0, _⟩ => rfl | ⟨1, _⟩ => rfl)
  have e3 : idx_main_v7 (idx_main_v8 (ix2 r j)) = ix1 j := funext fun a => Fin.ext (by
    match a with | ⟨0, _⟩ => rfl)
  simp only [Ideal.addf_def, val_main_v5_apply, e1, e2, e3]

/-- Two 65536 × 1024 arrays joined along the columns read, at (r, c), the two rows r laid side by side at c. -/
theorem catCols_apply (a b : (⟨S65536x1024, .f32⟩ : BufTy).Contents (Elt Ideal))
    (h : Shape.Concatenates [S65536x1024, S65536x1024] S65536x2048 1) (r : Fin 65536) (c : Fin 2048) :
    concatenate S65536x2048 1 [⟨S65536x1024, a⟩, ⟨S65536x1024, b⟩] h (ix2 r c)
      = cat (fun j => a (ix2 r j)) (fun j => b (ix2 r j)) c := by
  unfold cat
  split
  · rename_i hc
    exact concatenate_pair_apply_left 1 a b h (ix2 r c) rfl (ix2 r ⟨c.val, hc⟩) (fun ax => by
      match ax with | ⟨0, _⟩ => rfl | ⟨1, _⟩ => rfl)
  · rename_i hc
    exact concatenate_pair_apply_right 1 a b h (ix2 r c) rfl rfl (ix2 r ⟨c.val - 1024, by have := c.isLt; omega⟩)
      (fun ax hne => by
        match ax, hne with
        | ⟨0, _⟩, _ => rfl
        | ⟨1, _⟩, hne => exact absurd rfl hne)
      (by show c.val - 1024 + 1024 = c.val; omega)

/-- The blend at (r, c): s · (W ‖ B) + (1 − s) · (B ‖ W), with W, B the accumulator rows of position r and s its
    side-to-move weight. -/
theorem blend_apply (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (r : Fin 65536) (c : Fin 2048) :
    val_main_v18 (F := Ideal) x0 x1 x2 x3 x4 (ix2 r c)
      = x2 (ix2 r (0 : Fin 1)) * cat (ftAcc (fun k => x0 (ix2 r k)) (fun q k => x3 (ix2 q k)) (fun q => x4 (ix1 q))) (ftAcc (fun k => x1 (ix2 r k)) (fun q k => x3 (ix2 q k)) (fun q => x4 (ix1 q))) c + (1 - x2 (ix2 r (0 : Fin 1))) * cat (ftAcc (fun k => x1 (ix2 r k)) (fun q k => x3 (ix2 q k)) (fun q => x4 (ix1 q))) (ftAcc (fun k => x0 (ix2 r k)) (fun q k => x3 (ix2 q k)) (fun q => x4 (ix1 q))) c := by
  rw [val_main_v18_apply, val_main_v12_apply, val_main_v17_apply, val_main_v11_apply, val_main_v16_apply,
    val_main_v14_apply, val_main_v13_apply, val_main_cst_apply]
  unfold val_main_v10 val_main_v15
  rw [catCols_apply, catCols_apply]
  have e1 : idx_main_v11 (ix2 r c) = ix2 r (0 : Fin 1) := funext fun a => Fin.ext (by
    match a with | ⟨0, _⟩ => rfl | ⟨1, _⟩ => rfl)
  have e2 : idx_main_v16 (ix2 r c) = ix2 r (0 : Fin 1) := funext fun a => Fin.ext (by
    match a with | ⟨0, _⟩ => rfl | ⟨1, _⟩ => rfl)
  simp only [Ideal.addf_def, Ideal.mulf_def, Ideal.subf_def, Ideal.ofBits_def, one_f32, accW_apply, accB_apply, e1, e2]

/-- The reference's clamp — the smaller of the 1.0 array and (the larger of the 0.0 array and x) — of one number. -/
theorem clamp_eq (x : EReal) :
    FloatOps.minimumf (F := Ideal) (φ := .f32) (FloatOps.ofBits .f32 0x3F800000#32)
      (FloatOps.maximumf (FloatOps.ofBits .f32 0x00000000#32) x) = clip01 x := by
  unfold clip01
  simp only [Ideal.minimumf_def, Ideal.maximumf_def, Ideal.ofBits_def, one_f32, Ideal.ofBits_zero_f32]

/-- The first dense layer before its clamp at (r, e). -/
theorem l1_apply (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (r : Fin 65536) (e : Fin 8) :
    val_main_v24 (F := Ideal) x0 x1 x2 x3 x4 x5 x6 (ix2 r e) = (l1Cat (ftAcc (fun k => x0 (ix2 r k)) (fun q k => x3 (ix2 q k)) (fun q => x4 (ix1 q))) (ftAcc (fun k => x1 (ix2 r k)) (fun q k => x3 (ix2 q k)) (fun q => x4 (ix1 q))) (x2 (ix2 r (0 : Fin 1))) (fun e c => x5 (ix2 e c)) (fun e => x6 (ix1 e))) e := by
  rw [val_main_v24_apply, val_main_v21_apply, val_main_v23_apply, val_main_v22_apply]
  unfold l1Cat
  have e1 : ∀ c : Fin 2048, lidx_main_v21 (ix2 r e) c = ix2 r c := fun c => funext fun a => Fin.ext (by
    match a with | ⟨0, _⟩ => rfl | ⟨1, _⟩ => rfl)
  have e2 : ∀ c : Fin 2048, idx_main_v20 (ridx_main_v21 (ix2 r e) c) = ix2 e c := fun c => funext fun a => Fin.ext (by
    match a with | ⟨0, _⟩ => rfl | ⟨1, _⟩ => rfl)
  have e3 : idx_main_v22 (idx_main_v23 (ix2 r e)) = ix1 e := funext fun a => Fin.ext (by
    match a with | ⟨0, _⟩ => rfl)
  simp only [Ideal.addf_def, val_main_v20_apply, val_main_v19_apply, val_main_call0_v4_apply, val_main_call0_v3_apply,
    val_main_cst_1_apply, val_main_call0_v2_apply, val_main_call0_v1_apply, val_main_call0_v0_apply, val_main_cst_0_apply,
    clamp_eq, blend_apply, e1, e2, e3]

/-- The second dense layer before its clamp at (r, e). -/
theorem l2_apply (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) (r : Fin 65536) (e : Fin 32) :
    val_main_v30 (F := Ideal) x0 x1 x2 x3 x4 x5 x6 x7 x8 (ix2 r e)
      = l2Of (l1Cat (ftAcc (fun k => x0 (ix2 r k)) (fun q k => x3 (ix2 q k)) (fun q => x4 (ix1 q))) (ftAcc (fun k => x1 (ix2 r k)) (fun q k => x3 (ix2 q k)) (fun q => x4 (ix1 q))) (x2 (ix2 r (0 : Fin 1))) (fun e c => x5 (ix2 e c)) (fun e => x6 (ix1 e))) (fun q k => x7 (ix2 q k)) (fun q => x8 (ix1 q)) e := by
  rw [val_main_v30_apply, val_main_v27_apply, val_main_v29_apply, val_main_v28_apply]
  unfold l2Of
  have e1 : ∀ k : Fin 8, lidx_main_v27 (ix2 r e) k = ix2 r k := fun k => funext fun a => Fin.ext (by
    match a with | ⟨0, _⟩ => rfl | ⟨1, _⟩ => rfl)
  have e2 : ∀ k : Fin 8, idx_main_v26 (ridx_main_v27 (ix2 r e) k) = ix2 e k := fun k => funext fun a => Fin.ext (by
    match a with | ⟨0, _⟩ => rfl | ⟨1, _⟩ => rfl)
  have e3 : idx_main_v28 (idx_main_v29 (ix2 r e)) = ix1 e := funext fun a => Fin.ext (by
    match a with | ⟨0, _⟩ => rfl)
  simp only [Ideal.addf_def, val_main_v26_apply, val_main_v25_apply, val_main_call1_v4_apply, val_main_call1_v3_apply,
    val_main_cst_3_apply, val_main_call1_v2_apply, val_main_call1_v1_apply, val_main_call1_v0_apply, val_main_cst_2_apply,
    clamp_eq, l1_apply, e1, e2, e3]

/-- The reference's second result at row r: the network's raw output for position r. -/
theorem raw_apply (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal)) (r : Fin 65536) :
    val_main_v36 (F := Ideal) x0 x1 x2 x3 x4 x5 x6 x7 x8 x9 x10 (ix2 r (0 : Fin 1))
      = rawOf (l1Cat (ftAcc (fun k => x0 (ix2 r k)) (fun q k => x3 (ix2 q k)) (fun q => x4 (ix1 q))) (ftAcc (fun k => x1 (ix2 r k)) (fun q k => x3 (ix2 q k)) (fun q => x4 (ix1 q))) (x2 (ix2 r (0 : Fin 1))) (fun e c => x5 (ix2 e c)) (fun e => x6 (ix1 e))) (fun q k => x7 (ix2 q k)) (fun q => x8 (ix1 q)) (fun k => x9 (ix2 (0 : Fin 1) k)) (x10 (ix1 (0 : Fin 1))) := by
  rw [val_main_v36_apply, val_main_v33_apply, val_main_v35_apply, val_main_v34_apply]
  unfold rawOf
  have e1 : ∀ k : Fin 32, lidx_main_v33 (ix2 r (0 : Fin 1)) k = ix2 r k := fun k => funext fun a => Fin.ext (by
    match a with | ⟨0, _⟩ => rfl | ⟨1, _⟩ => rfl)
  have e2 : ∀ k : Fin 32, idx_main_v32 (ridx_main_v33 (ix2 r (0 : Fin 1)) k) = ix2 (0 : Fin 1) k := fun k => funext fun a => Fin.ext (by
    match a with | ⟨0, _⟩ => rfl | ⟨1, _⟩ => rfl)
  have e3 : idx_main_v34 (idx_main_v35 (ix2 r (0 : Fin 1))) = ix1 (0 : Fin 1) := funext fun a => Fin.ext (by
    match a with | ⟨0, _⟩ => rfl)
  simp only [Ideal.addf_def, val_main_v32_apply, val_main_v31_apply, val_main_call2_v4_apply, val_main_call2_v3_apply,
    val_main_cst_5_apply, val_main_call2_v2_apply, val_main_call2_v1_apply, val_main_call2_v0_apply, val_main_cst_4_apply,
    clamp_eq, l2_apply, e1, e2, e3]

/-- The reference's first result at row r: the logistic of the raw output. -/
theorem out_apply (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal)) (r : Fin 65536) :
    val_main_v42 (F := Ideal) x0 x1 x2 x3 x4 x5 x6 x7 x8 x9 x10 (ix2 r (0 : Fin 1))
      = Ideal.logistic (val_main_v36 (F := Ideal) x0 x1 x2 x3 x4 x5 x6 x7 x8 x9 x10 (ix2 r (0 : Fin 1))) := by
  rw [val_main_v42_apply, val_main_v41_apply, val_main_cst_7_apply, val_main_v40_apply, val_main_v39_apply,
    val_main_cst_6_apply, val_main_v38_apply, val_main_v37_apply]
  simp only [Ideal.hostDivf_def, Ideal.addf_def, Ideal.hostUnary_exp_def, Ideal.hostNegf_def, Ideal.ofBits_def, one_f32]
  rfl

/-- THE REFERENCE'S SECOND RESULT is the raw outputs of all positions (blend over the whole row) of its arguments. -/
theorem raw_eq (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal)) :
    val_main_v36 (F := Ideal) x0 x1 x2 x3 x4 x5 x6 x7 x8 x9 x10 = rawCatArr x0 x1 x2 x3 x4 x5 x6 x7 x8 x9 x10 := by
  funext i
  obtain ⟨r, u, rfl⟩ : ∃ (r : Fin 65536) (u : Fin 1), i = ix2 r u := ⟨i 0, i 1, eq_ix2 i⟩
  obtain rfl : u = 0 := Subsingleton.elim _ _
  exact raw_apply x0 x1 x2 x3 x4 x5 x6 x7 x8 x9 x10 r

/-- THE REFERENCE'S FIRST RESULT is the logistic of those raw outputs. -/
theorem out_eq (x0 x1 : (⟨S65536x768, .f32⟩ : BufTy).Contents (Elt Ideal)) (x2 : (⟨S65536x1, .f32⟩ : BufTy).Contents (Elt Ideal)) (x3 : (⟨S1024x768, .f32⟩ : BufTy).Contents (Elt Ideal)) (x4 : (⟨S1024, .f32⟩ : BufTy).Contents (Elt Ideal)) (x5 : (⟨S8x2048, .f32⟩ : BufTy).Contents (Elt Ideal)) (x6 : (⟨S8, .f32⟩ : BufTy).Contents (Elt Ideal)) (x7 : (⟨S32x8, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal)) :
    val_main_v42 (F := Ideal) x0 x1 x2 x3 x4 x5 x6 x7 x8 x9 x10
      = logisticArr (rawCatArr x0 x1 x2 x3 x4 x5 x6 x7 x8 x9 x10) := by
  funext i
  obtain ⟨r, u, rfl⟩ : ∃ (r : Fin 65536) (u : Fin 1), i = ix2 r u := ⟨i 0, i 1, eq_ix2 i⟩
  obtain rfl : u = 0 := Subsingleton.elim _ _
  rw [out_apply, raw_eq]
  rfl

end Cert.ReferenceIdeal.Rows

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  From the precondition to real numbers.

  The precondition tests each of the eleven arguments — "every entry's absolute value is below plus infinity" — and joins
  the eleven bits by conjunction, argument by argument from the left. Where the joined bit is one, each test's bit is
  one, and an argument whose test is one has only real entries. The blend's algebra needs this of the first five
  arguments: the two feature arrays, the side-to-move column, the feature weights and the feature bias.
-/
import proofs.«176070_j67053029425688_2_alg».proof.Pre_finite_inputs
import proofs.«176070_j67053029425688_2_alg».proof.Proof.Gen.Pre_finite_inputs
import proofs.«176070_j67053029425688_2_alg».proof.Proof.LibFiniteEntries
import Idealize.ShloMosaic.Lib.Affine

noncomputable section

namespace Cert.Pre_finite_inputs.Real

open Cert.Pre_finite_inputs Cert.Pre_finite_inputs.Gen Idealize.ShloMosaic Idealize.ShloMosaic.ValueIdx

/-- Where the precondition's bit is one, the first five arguments have only real entries. -/
theorem real_of_pre (a0 a1 : FVec Ideal S65536x768 .f32) (a2 : FVec Ideal S65536x1 .f32) (a3 : FVec Ideal S1024x768 .f32)
    (a4 : FVec Ideal S1024 .f32) (a5 : FVec Ideal S8x2048 .f32) (a6 : FVec Ideal S8 .f32) (a7 : FVec Ideal S32x8 .f32)
    (a8 : FVec Ideal S32 .f32) (a9 : FVec Ideal S1x32 .f32) (a10 : FVec Ideal S1 .f32)
    (h : fn (F := Ideal) a0 a1 a2 a3 a4 a5 a6 a7 a8 a9 a10 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have h0 := congrFun h ix0
  dsimp only [fn, fn_part1, fn_part2, fn_part3] at h0
  have h48 := (IntOp.andi_eq_one.1 h0).1
  have h43 := (IntOp.andi_eq_one.1 h48).1
  have h38 := (IntOp.andi_eq_one.1 h43).1
  have h33 := (IntOp.andi_eq_one.1 h38).1
  have h28 := (IntOp.andi_eq_one.1 h33).1
  have h23 := (IntOp.andi_eq_one.1 h28).1
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨Cert.LibFiniteEntries.real_entries_of_all_lt_inf a0 _ _ _ _ h3,
    Cert.LibFiniteEntries.real_entries_of_all_lt_inf a1 _ _ _ _ h7,
    Cert.LibFiniteEntries.real_entries_of_all_lt_inf a2 _ _ _ _ h12,
    Cert.LibFiniteEntries.real_entries_of_all_lt_inf a3 _ _ _ _ h17,
    Cert.LibFiniteEntries.real_entries_of_all_lt_inf a4 _ _ _ _ h22⟩

end Cert.Pre_finite_inputs.Real

end
-- ==== Proof.lean ====
/-
  The kernel evaluates 65536 chess positions, 1024 per grid point, through a small network: a feature transformer applied
  to the white and to the black feature rows, a blend of the two accumulators by the side-to-move weight s, and three
  dense layers with clamps to [0, 1], ending in a raw output and its logistic. It forms the blend's two halves as
  B + s · (W − B) and W − s · (W − B); the reference forms s · (W ‖ B) + (1 − s) · (B ‖ W) over the joined 2048-wide row.
  On real numbers these are one function (Proof/Spec.lean), and the precondition makes every entry of the arrays that
  enter W, B and s a real number (Proof/Finite.lean). What each program's result arrays hold, as functions of the eleven
  arguments, is read in Proof/KernelRows.lean and Proof/KernelArray.lean (the kernel: one row of a block, then the 64
  blocks as the whole array) and Proof/RefRows.lean (the reference, one operation at a time). Here the five claims are
  put together: the three runs, the empty list of rewrites, and the equality of the two programs' results.
-/
import proofs.«176070_j67053029425688_2_alg».proof.Defs
import proofs.«176070_j67053029425688_2_alg».proof.Proof.Gen.Kernel
import proofs.«176070_j67053029425688_2_alg».proof.Proof.Gen.Kernel.Skeleton
import proofs.«176070_j67053029425688_2_alg».proof.Proof.Gen.Kernel.Launch
import proofs.«176070_j67053029425688_2_alg».proof.Proof.Gen.Kernel.Points
import proofs.«176070_j67053029425688_2_alg».proof.Proof.Gen.Kernel.Frame
import proofs.«176070_j67053029425688_2_alg».proof.Proof.Gen.KernelIdeal
import proofs.«176070_j67053029425688_2_alg».proof.Proof.Gen.KernelIdeal.Skeleton
import proofs.«176070_j67053029425688_2_alg».proof.Proof.Gen.KernelIdeal.Launch
import proofs.«176070_j67053029425688_2_alg».proof.Proof.Gen.KernelIdeal.Points
import proofs.«176070_j67053029425688_2_alg».proof.Proof.Gen.KernelIdeal.Frame
import proofs.«176070_j67053029425688_2_alg».proof.Proof.Gen.ReferenceIdeal
import proofs.«176070_j67053029425688_2_alg».proof.Proof.Gen.KernelIdeal.Value
import proofs.«176070_j67053029425688_2_alg».proof.Proof.Gen.ReferenceIdeal.Run
import proofs.«176070_j67053029425688_2_alg».proof.Proof.Gen.ReferenceIdeal.Read
import proofs.«176070_j67053029425688_2_alg».proof.Proof.Gen.Pre_finite_inputs
import proofs.«176070_j67053029425688_2_alg».proof.Proof.KernelArray
import proofs.«176070_j67053029425688_2_alg».proof.Proof.RefRows
import proofs.«176070_j67053029425688_2_alg».proof.Proof.Finite
import Idealize.ShloMosaic.Adequacy
import Idealize.ShloMosaic.Init

noncomputable section

namespace Cert.Proof

open Idealize.ShloMosaic Idealize.SL.Sem Cert.Nnue

/-- The printed kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the printed kernel's text read at the ideal values: no operation was rewritten. -/
theorem preserves : Cert.preserves_Kernel_KernelIdeal := trivial

/-- Both programs end with the logistic of the raw outputs, and the raw outputs, of all positions: the kernel's with the
    blend formed half by half, the reference's over the whole row — one array where the first five arguments are real,
    which the precondition says. -/
theorem algebraic : Cert.algebraic_KernelIdeal_ReferenceIdeal := by
  intro m ρ m' ρ' hpre hagree
  refine ⟨fun c => logisticArr (rawCatArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))),
    fun c => rawCatArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Whole.run m ρ)
    obtain ⟨r0, r1, r2, r3, r4⟩ := Cert.Pre_finite_inputs.Real.real_of_pre _ _ _ _ _ _ _ _ _ _ _ (hpre c)
    have e := rawBlendArr_eq_rawCatArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) r0 r1 r2 r3 r4
    exact ⟨(h c).1.trans (congrArg logisticArr e), (h c).2.1.trans e, (h c).2.2⟩
  · refine (θ_run Cert.ReferenceIdeal.defs _ _).mono (fun r h c => ?_)
      (Cert.ReferenceIdeal.Value.run (F := Ideal) m' ρ')
    obtain ⟨a0, a1, a2, a3, a4, a5, a6, a7, a8, a9, a10⟩ := hagree c
    refine ⟨(h c).1.trans ?_, (h c).2.1.trans ?_, (h c).2.2⟩
    · rw [Cert.ReferenceIdeal.Read.val_main_v42_eq, Cert.ReferenceIdeal.Rows.out_eq, a0, a1, a2, a3, a4, a5, a6, a7, a8,
        a9, a10]
    · rw [Cert.ReferenceIdeal.Read.val_main_v36_eq, Cert.ReferenceIdeal.Rows.raw_eq, a0, a1, a2, a3, a4, a5, a6, a7, a8,
        a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
